-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x4096 .f32) (main_arg1 : FVec F S1024x4096 .f32) (main_arg2 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x4096 : Shape := ⟨2, ![4096, 4096]⟩
abbrev S1024x4096 : Shape := ⟨2, ![1024, 4096]⟩
abbrev S1024 : Shape := ⟨1, ![1024]⟩
abbrev S1x1024 : Shape := ⟨2, ![1, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024, .f32⟩
  | .hbm, ⟨3, _⟩ => ⟨S1024x4096, .bf16⟩
  | .hbm, ⟨4, _⟩ => ⟨S1x1024, .f32⟩
  | .hbm, ⟨5, _⟩ => ⟨S4096x1024, .f32⟩
  | .local _ .vmem, ⟨0, _⟩ => ⟨S1024x4096, .f32⟩
  | .local _ .vmem, ⟨1, _⟩ => ⟨S1024x4096, .f32⟩
  | .local _ .vmem, ⟨2, _⟩ => ⟨S1024x4096, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S1024_S1x1024 : S1024.ShapeCasts S1x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1024x4096 : Shape := ⟨2, ![1024, 4096]⟩
abbrev S1024 : Shape := ⟨1, ![1024]⟩
abbrev S1x1024 : Shape := ⟨2, ![1, 1024]⟩
abbrev S4096x1024 : Shape := ⟨2, ![4096, 1024]⟩
abbrev S512x512 : Shape := ⟨2, ![512, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x4096.size a
  hwx0_1 : ∀ i : grid0.Coords, EltTy.bits .f32 = 32 ∨ (Rect.block (s := S1024x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x1024.size a
  hwx0_3 : ∀ i : grid0.Coords, EltTy.bits .f32 = 32 ∨ (Rect.block (s := S4096x1024) S512x512.size (cc0_transform_3 i) (hinb0_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibBlockSum.lean ====
/-
  Two small tools for a matrix product accumulated block by block along its contraction axis.

  (1) A sum over the first J * B naturals is the sum, over the J consecutive blocks of length B, of each block's
      sum: the block s holds the naturals B * s, ..., B * s + (B - 1). Only commutativity and associativity of
      the addition are used, so the statement holds in any commutative additive monoid -- in particular on the
      extended reals, where no finiteness is needed.
  (2) A rank-2 array read at a pair of NATURAL coordinates (zero outside the extents). It lets a block's entry
      "block index * block size + offset" be written with plain arithmetic on naturals, and agrees with the
      array at every genuine index.
-/
import Idealize.ShloMosaic.Lib.ValueIdx

noncomputable section

open scoped BigOperators

namespace Idealize.ShloMosaic.BlockSum

open Idealize.ShloMosaic Idealize.ShloMosaic.ValueIdx

/-- The sum over the first J * B naturals, block by block. -/
theorem sum_range_blocks {β : Type*} [AddCommMonoid β] (f : ℕ → β) (J B : ℕ) :
    ∑ j ∈ Finset.range (J * B), f j = ∑ s ∈ Finset.range J, ∑ k ∈ Finset.range B, f (B * s + k) := by
  induction J with
  | zero => simp
  | succ J ih =>
    rw [Nat.succ_mul, Finset.sum_range_add, ih, Finset.sum_range_succ, Nat.mul_comm J B]

/-- A rank-2 array of extended reals read at natural coordinates; zero outside the extents. -/
def at2 {R C : ℕ} (A : (⟨2, ![R, C]⟩ : Shape).Idx → EReal) (r c : ℕ) : EReal :=
  if h : r < R ∧ c < C then A (ix2 ⟨r, h.1⟩ ⟨c, h.2⟩) else 0

/-- At the coordinates of a genuine index the natural-coordinate read is the array. -/
theorem at2_val {R C : ℕ} (A : (⟨2, ![R, C]⟩ : Shape).Idx → EReal) (i : (⟨2, ![R, C]⟩ : Shape).Idx) :
    at2 A (i 0).val (i 1).val = A i := by
  unfold at2
  rw [dif_pos ⟨(i 0).isLt, (i 1).isLt⟩]
  exact congrArg A (eq_ix2 i).symm

/-- The same, for an index given by its two coordinates. -/
theorem at2_ix2 {R C : ℕ} (A : (⟨2, ![R, C]⟩ : Shape).Idx → EReal) (r : Fin R) (c : Fin C) :
    at2 A r.val c.val = A (ix2 r c) := by
  unfold at2
  rw [dif_pos ⟨r.isLt, c.isLt⟩]

/-- A sum over a finite ordinal of a natural-coordinate term is the sum over the initial segment of the naturals. -/
theorem sum_fin_eq_range {β : Type*} [AddCommMonoid β] (n : ℕ) (f : ℕ → β) :
    ∑ k : Fin n, f k.val = ∑ k ∈ Finset.range n, f k :=
  (Finset.sum_range f).symm

end Idealize.ShloMosaic.BlockSum

end
-- ==== Proof.Linear.lean ====
/-
  The affine map of this certificate, and the arithmetic of its contraction taken block by block.

  Both programs compute y = x wᵀ + b for x of 4096 × 4096, w of 1024 × 4096 and b of length 1024:
  entry (r, n) of y is the sum over k < 4096 of x(r, k) · w(n, k), plus b(n). One program takes the whole
  contraction at once; the other adds the eight consecutive stretches of 512 columns into an accumulator that
  starts at zero. On the extended reals addition is commutative and associative and zero is its unit, so the
  running sum over the first 512 · s columns, extended by the next stretch, is the running sum over the first
  512 · (s + 1) columns, and after eight stretches it is the whole contraction: no finiteness is needed.

  The running sum is written over natural-number coordinates (an array read as zero outside its extents) so that
  "row 512 · i + p, column 512 · s + l" is plain arithmetic.
-/
import Idealize.ShloMosaic.PureOps.Ideal
import Idealize.ShloMosaic.Lib.ValueIdx
import proofs.«101121_g2000001187110709_pallasbulk_1111_2_alg».proof.Proof.LibBlockSum

noncomputable section

open scoped BigOperators

namespace Cert.Linear

open Idealize.ShloMosaic Idealize.ShloMosaic.ValueIdx Idealize.ShloMosaic.BlockSum

/-- The shapes of x, w, b and y. -/
abbrev SX : Shape := ⟨2, ![4096, 4096]⟩
abbrev SW : Shape := ⟨2, ![1024, 4096]⟩
abbrev SB : Shape := ⟨1, ![1024]⟩
abbrev SY : Shape := ⟨2, ![4096, 1024]⟩

/-- y = x wᵀ + b, entry by entry, on the extended reals. -/
def linear (x : SX.Idx → EReal) (w : SW.Idx → EReal) (b : SB.Idx → EReal) : SY.Idx → EReal :=
  fun i => (∑ k : Fin 4096, x (ix2 (i 0) k) * w (ix2 (i 1) k)) + b (ix1 (i 1))

/-- The contraction of row r of x with row n of w over the first len columns. -/
def pdot (x : SX.Idx → EReal) (w : SW.Idx → EReal) (r n len : ℕ) : EReal :=
  ∑ k ∈ Finset.range len, at2 x r k * at2 w n k

/-- Over no column it is zero. -/
theorem pdot_zero (x : SX.Idx → EReal) (w : SW.Idx → EReal) (r n : ℕ) : pdot x w r n 0 = 0 :=
  Finset.sum_range_zero _

/-- Extending it by the next B columns adds their products. -/
theorem pdot_add (x : SX.Idx → EReal) (w : SW.Idx → EReal) (r n len B : ℕ) :
    pdot x w r n (len + B) = pdot x w r n len + ∑ l ∈ Finset.range B, at2 x r (len + l) * at2 w n (len + l) :=
  Finset.sum_range_add _ _ _

/-- Over all 4096 columns it is the contraction of the two rows. -/
theorem pdot_full (x : SX.Idx → EReal) (w : SW.Idx → EReal) (r : Fin 4096) (n : Fin 1024) :
    pdot x w r.val n.val 4096 = ∑ k : Fin 4096, x (ix2 r k) * w (ix2 n k) := by
  unfold pdot
  rw [← sum_fin_eq_range 4096 (fun k => at2 x r.val k * at2 w n.val k)]
  refine Finset.sum_congr rfl fun k _ => ?_
  rw [at2_ix2, at2_ix2]

end Cert.Linear

end
-- ==== Proof.KernelValue.lean ====
/-
  What the one-pass program's result array holds: y = x wᵀ + b, entry by entry, on the extended reals.

  Before its grid the program rounds w to a narrower float format (the identity on the extended reals) and views
  b as a 1 × 1024 row. Grid point t then reads rows 1024 t, …, 1024 t + 1023 of x, all of w and the bias row, and
  writes, for p, q < 1024, the sum over all 4096 columns k of x(1024 t + p, k) · w(q, k), plus b(q), into entry
  (1024 t + p, q) of the result. That is block t of the affine map, and the four row blocks tile the 4096 rows:
  entry (r, q) lies in the block of point r / 1024.
-/
import proofs.«101121_g2000001187110709_pallasbulk_1111_2_alg».proof.Proof.Gen.KernelIdeal.Value
import proofs.«101121_g2000001187110709_pallasbulk_1111_2_alg».proof.Proof.LibMatmulNT
import proofs.«101121_g2000001187110709_pallasbulk_1111_2_alg».proof.Proof.LibVectorAsMatrix
import proofs.«101121_g2000001187110709_pallasbulk_1111_2_alg».proof.Proof.Linear
import Idealize.ShloMosaic.Lib.Pipeline.Value
import Idealize.ShloMosaic.Lib.StableHlo.Run
import Idealize.ShloMosaic.PureOps.Ideal.Laws

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Linear
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## The body's arithmetic at an index -/

/-- The product's dimension numbers: both operands contracted along their second axis. -/
abbrev dims : DotDims S1024x4096 S1024x4096 S1024x1024 := dot_S1024x4096_S1024x4096_S1024x1024_1_1_0_0_n_n

theorem free_lhs (i : S1024x1024.Idx) (q : dims.contr.Idx) : (dims.lhsIdx i q 0).val = (i 0).val := by
  simp [DotDims.lhsIdx, dims, dot_S1024x4096_S1024x4096_S1024x1024_1_1_0_0_n_n]; rfl

theorem free_rhs (i : S1024x1024.Idx) (q : dims.contr.Idx) : (dims.rhsIdx i q 0).val = (i 1).val := by
  simp [DotDims.rhsIdx, dims, dot_S1024x4096_S1024x4096_S1024x1024_1_1_0_0_n_n]; rfl

/-- The stored block at (p, q): row p of the x block against row q of w over all 4096 columns, plus the bias
    row's entry q. The change of float format of the x block is the identity here. -/
theorem pay_apply (x0 : Vec Ideal S1024x4096 .f32) (x1 : Vec Ideal S1024x4096 .bf16) (x2 : Vec Ideal S1x1024 .f32)
    (p q : Fin 1024) :
    k0_pay1 x0 x1 x2 (ix2 p q) = (∑ k : Fin 4096, x0 (ix2 p k) * x1 (ix2 q k)) + x2 (ix2 (0 : Fin 1) q) := by
  unfold k0_pay1
  rw [addf_apply, shapeCast_self, shapeCast_self]
  refine congrArg₂ (· + ·) ?_ ?_
  · exact MatmulNT.matmul_zero_apply dims none rfl rfl rfl rfl free_lhs free_rhs
      (truncf .bf16 x0 bitsLt_bf16_f32) x1 (ix2 p q)
  · exact broadcastTo_apply x2 _ (ix2 p q) (ix2 (0 : Fin 1) q) (fun ax => by
      match ax with
      | ⟨0, _⟩ => rfl
      | ⟨1, _⟩ => rfl)

/-! ## The arrays the grid finds -/

/-- w after the change of float format, -/
theorem w_stage (c : Dev nD) : (V m c main_call0_v0 : S1024x4096.Idx → EReal)
    = truncf (F := Ideal) .bf16 (m ((c : Thread nD τ).loc main_arg1)) bitsLt_bf16_f32 := by
  dsimp only [Gen.V, Gen.hostOps0]; after_results; rfl

/-- and b as a row. -/
theorem b_stage (c : Dev nD) : (V m c main_call0_v1 : S1x1024.Idx → EReal)
    = shapeCast S1x1024 (m ((c : Thread nD τ).loc main_arg2)) shapeCasts_S1024_S1x1024 := by
  dsimp only [Gen.V, Gen.hostOps0]; after_results; rfl

/-- The block indices over the grid: x and the result move down one row block per point, w and b stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p, column k of the x block at point t is x at row 1024 t + p. -/
theorem xblk_apply (c : Dev nD) (t : Fin cfg0.N) (p : Fin 1024) (k : Fin 4096) (hr : 1024 * t.val + p.val < 4096) :
    (iblk m c 0 t : Vec Ideal S1024x4096 .f32) (ix2 p k)
      = m ((c : Thread nD τ).loc main_arg0) (ix2 ⟨1024 * t.val + p.val, hr⟩ k) := by
  obtain ⟨e0, e1, -⟩ := idx_facts t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 4096 + 1 * k.val = k.val; rw [e1]; omega

/-- The w block is all of w. -/
theorem wblk_apply (c : Dev nD) (t : Fin cfg0.N) (q : Fin 1024) (k : Fin 4096) :
    (iblk m c 1 t : Vec Ideal S1024x4096 .bf16) (ix2 q k) = m ((c : Thread nD τ).loc main_arg1) (ix2 q k) := by
  obtain ⟨-, -, e2, e3, -⟩ := idx_facts t
  unfold iblk
  rw [View.read_apply]
  show (V m c main_call0_v0 : S1024x4096.Idx → EReal) (((cfg0.win 1).blk t).view.emb (ix2 q k)) = _
  rw [w_stage, truncf_apply]
  refine congrArg _ (funext fun a => Fin.ext ?_)
  match a with
  | ⟨0, _⟩ => show win0_1.index t (0 : Fin 2) * 1024 + 1 * q.val = q.val; rw [e2]; omega
  | ⟨1, _⟩ => show win0_1.index t (1 : Fin 2) * 4096 + 1 * k.val = k.val; rw [e3]; omega

/-- The bias block is b as a row. -/
theorem bblk_apply (c : Dev nD) (t : Fin cfg0.N) (q : Fin 1024) :
    (iblk m c 2 t : Vec Ideal S1x1024 .f32) (ix2 (0 : Fin 1) q) = m ((c : Thread nD τ).loc main_arg2) (ix1 q) := by
  obtain ⟨-, -, -, -, e4, e5, -⟩ := idx_facts t
  unfold iblk
  rw [View.read_apply]
  show (V m c main_call0_v1 : S1x1024.Idx → EReal) (((cfg0.win 2).blk t).view.emb (ix2 (0 : Fin 1) q)) = _
  rw [b_stage]
  refine (congrArg _ (funext fun a => Fin.ext ?_)).trans
    (VectorAsMatrix.row_apply (m ((c : Thread nD τ).loc main_arg2)) shapeCasts_S1024_S1x1024 (0 : Fin 1) q)
  match a with
  | ⟨0, _⟩ => show win0_2.index t (0 : Fin 2) * 1 + 1 * 0 = 0; rw [e4]
  | ⟨1, _⟩ => show win0_2.index t (1 : Fin 2) * 1024 + 1 * q.val = q.val; rw [e5]; omega

/-- Entry (p, q) of the result's block at point t is entry (1024 t + p, q) of the result. -/
theorem out_emb (t : Fin cfg0.N) (p q : Fin 1024) (hr : 1024 * t.val + p.val < 4096) :
    ((cfg0.win 3).blk t).view.emb (ix2 p q) = (ix2 ⟨1024 * t.val + p.val, hr⟩ q : S4096x1024.Idx) := by
  obtain ⟨-, -, -, -, -, -, e6, e7⟩ := idx_facts t
  funext a
  apply Fin.ext
  match a with
  | ⟨0, _⟩ => show win0_3.index t (0 : Fin 2) * 1024 + 1 * p.val = 1024 * t.val + p.val; rw [e6]; omega
  | ⟨1, _⟩ => show win0_3.index t (1 : Fin 2) * 1024 + 1 * q.val = q.val; rw [e7]; omega

/-! ## From the blocks to the array -/

/-- The affine map of the argument arrays as launched. -/
abbrev result (c : Dev nD) : Buf (Elt Ideal) ((c : Thread nD τ).loc main_v0) :=
  linear (m ((c : Thread nD τ).loc main_arg0)) (m ((c : Thread nD τ).loc main_arg1)) (m ((c : Thread nD τ).loc main_arg2))

/-- What point t writes back is block t of the affine map. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S1024x4096) origin, View.ld_unit_zero (S := S1x1024) origin]
  funext y
  obtain ⟨p, q, rfl⟩ : ∃ (p q : Fin 1024), y = ix2 p q := ⟨y 0, y 1, eq_ix2 y⟩
  have hr : 1024 * t.val + p.val < 4096 := by
    have h1 := t.isLt; have hN : cfg0.N = 4 := N_0; have h2 := p.isLt; omega
  show k0_pay1 (iblk m c 0 t) (iblk m c 1 t) (iblk m c 2 t) (ix2 p q)
    = result m c (((cfg0.win 3).blk t).view.emb (ix2 p q))
  rw [out_emb t p q hr]
  refine (pay_apply (iblk m c 0 t) (iblk m c 1 t) (iblk m c 2 t) p q).trans ?_
  exact congrArg₂ (· + ·)
    (Finset.sum_congr rfl fun k _ => congrArg₂ (· * ·) (xblk_apply m c t p k hr) (wblk_apply m c t q k))
    (bblk_apply m c t q)

/-- Every entry of the result lies in the block of the point its row selects. -/
theorem cover (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 4 := N_0
  have ht : (i 0).val / 1024 < cfg0.N := by omega
  obtain ⟨-, -, -, -, -, -, e6, e7⟩ := idx_facts ⟨(i 0).val / 1024, ht⟩
  refine ⟨⟨(i 0).val / 1024, ht⟩, flush0_3 _, ?_⟩
  show i ∈ ((View.whole main_v0).slice (win0_3.rect ⟨(i 0).val / 1024, ht⟩)).set
  rw [View.set_slice_whole, Rect.mem_set_unit]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e6]; dsimp only; omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e7]; omega

/-- So the result array ends at the affine map. -/
theorem final (c : Dev nD) : (dats m 0 c).arrAt 3 cfg0.N = result m c :=
  (dats m 0 c).arrAt_eq_of_cover 3 (result m c) (fun t _ => flushed_eq m c t) cover

/-- The run, read: the result at the affine map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefPieces.lean ====
/-
  What each control case of the blocked program's body leaves behind, as values.

  The body keeps a 512 × 512 accumulator between grid points. At a point it may first reset the accumulator to the
  zero block (only at the first stretch of columns), then adds to it the product of the point's block of x with the
  transpose of its block of w, and, only at the last stretch, stores the accumulator plus the bias row into the
  output block. So with zero the zero block, step acc x w = acc + x wᵀ and fin acc b = acc + (b on every row):

    first stretch   the accumulator ends at  step zero x w
    middle stretch  the accumulator ends at  step acc x w           (acc what the point before left)
    last stretch    the accumulator ends at  step acc x w, and the output block at  fin (step acc x w) b

  Each is read off the stores the body made: one store of the whole buffer leaves its payload, a load of the whole
  buffer after such a store reads that payload, and a load of an untouched whole buffer reads its contents. This
  holds for any float values.
-/
import proofs.«101121_g2000001187110709_pallasbulk_1111_2_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

/-- Every access of the body starts at the origin of its buffer. -/
theorem origin : (![0, 0] : Fin 2 → Nat) = fun _ => 0 := funext fun a => by fin_cases a <;> rfl

/-- First stretch: the accumulator is reset, read back, and ends at the zero block plus the point's product. -/
theorem scratch_first (c : Dev nD) (i : grid0.Coords) (a3 : Memref sig .tc .vmem S512x512 .f32) (h3 : a3.IsWhole)
    (a4 : Memref sig .tc .vmem S512x512 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : cond0_0 i) (hc1 : ¬cond0_1 i) (x0 x1 : Vec F S512x512 .f32) (x2 : Vec F S1x512 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x512) origin, View.readCov_unit_zero (S := S512x512) _ origin]
  simp only [View.readAt_eq_ld, h3.read_unread, h4.read_unread, View.ld_unit_zero (S := S512x512) origin]

/-- Middle stretch: the accumulator ends at what the point before left plus the point's product. -/
theorem scratch_middle (c : Dev nD) (i : grid0.Coords) (a3 : Memref sig .tc .vmem S512x512 .f32) (h3 : a3.IsWhole)
    (a4 : Memref sig .tc .vmem S512x512 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : ¬cond0_1 i) (x0 x1 : Vec F S512x512 .f32) (x2 : Vec F S1x512 .f32)
    (acc : Vec F S512x512 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin]
  simp only [View.readAt_eq_ld, h3.read_unread, h4.read_unread, h7.read_unread,
    View.ld_unit_zero (S := S512x512) origin]

/-- Last stretch: the accumulator ends the same way, -/
theorem scratch_last (c : Dev nD) (i : grid0.Coords) (a3 : Memref sig .tc .vmem S512x512 .f32) (h3 : a3.IsWhole)
    (a4 : Memref sig .tc .vmem S512x512 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 x1 : Vec F S512x512 .f32) (x2 : Vec F S1x512 .f32)
    (acc : Vec F S512x512 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread,
    View.ld_unit_zero (S := S512x512) origin]

/-- and the output block is that accumulator, read back, plus the bias row. -/
theorem out_last (c : Dev nD) (i : grid0.Coords) (a3 : Memref sig .tc .vmem S512x512 .f32) (h3 : a3.IsWhole)
    (a4 : Memref sig .tc .vmem S512x512 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 x1 : Vec F S512x512 .f32) (x2 : Vec F S1x512 .f32)
    (acc : Vec F S512x512 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin, View.readCov_unit_zero (S := S512x512) _ origin]
  simp only [View.readAt_eq_ld, h3.read_unread, h4.read_unread, h5.read_unread, h7.read_unread,
    View.ld_unit_zero (S := S512x512) origin, View.ld_unit_zero (S := S1x512) origin]

end Cert.ReferenceIdeal.Pieces

end
-- ==== Proof.RefStep.lean ====
/-
  The blocked program's three payloads read at an index on the extended reals, and one step of its accumulation.

  With 512 × 512 blocks acc, x, w and a 1 × 512 row b:
    the reset block is zero everywhere;
    (acc + x wᵀ)(p, q) = acc(p, q) + the sum over l < 512 of x(p, l) · w(q, l);
    (acc + b on every row)(p, q) = acc(p, q) + b(0, q).
  If acc(p, q) is the contraction of row r₀ + p of X with row n₀ + q of W over the first 512 · s columns, and the
  blocks x and w hold columns 512 · s, …, 512 · s + 511 of those rows, then acc + x wᵀ is the contraction over the
  first 512 · (s + 1) columns: the sum over a range extended by the next stretch.
-/
import proofs.«101121_g2000001187110709_pallasbulk_1111_2_alg».proof.Proof.Gen.ReferenceIdeal.Skeleton
import proofs.«101121_g2000001187110709_pallasbulk_1111_2_alg».proof.Proof.LibMatmulNT
import proofs.«101121_g2000001187110709_pallasbulk_1111_2_alg».proof.Proof.Linear
import Idealize.ShloMosaic.Lib.Pipeline.Value
import Idealize.ShloMosaic.PureOps.Ideal.Laws

noncomputable section

open scoped BigOperators

namespace Cert.ReferenceIdeal.Step

open Cert.ReferenceIdeal Cert.ReferenceIdeal.Gen Idealize.ShloMosaic Idealize.ShloMosaic.ValueIdx
open Idealize.ShloMosaic.BlockSum Cert.Linear

/-- The product's dimension numbers: both operands contracted along their second axis. -/
abbrev dims : DotDims S512x512 S512x512 S512x512 := dot_S512x512_S512x512_S512x512_1_1_0_0_n_n

/-- The left operand's free axis reads the result's row, -/
theorem free_lhs (i : S512x512.Idx) (q : dims.contr.Idx) : (dims.lhsIdx i q 0).val = (i 0).val := by
  simp [DotDims.lhsIdx, dims, dot_S512x512_S512x512_S512x512_1_1_0_0_n_n]; rfl

/-- and the right operand's free axis reads the result's column. -/
theorem free_rhs (i : S512x512.Idx) (q : dims.contr.Idx) : (dims.rhsIdx i q 0).val = (i 1).val := by
  simp [DotDims.rhsIdx, dims, dot_S512x512_S512x512_S512x512_1_1_0_0_n_n]; rfl

/-- The reset block is zero. -/
theorem zero_apply (j : S512x512.Idx) : k0_pay1 (F := Ideal) j = 0 := by
  unfold k0_pay1
  rw [shapeCast_self]
  exact Ideal.ofBits_zero_f32

/-- acc + x wᵀ, entry by entry. -/
theorem step_apply (acc x0 x1 : Vec Ideal S512x512 .f32) (p q : Fin 512) :
    k0_pay2 acc x0 x1 (ix2 p q) = acc (ix2 p q) + ∑ l : Fin 512, x0 (ix2 p l) * x1 (ix2 q l) := by
  unfold k0_pay2
  rw [shapeCast_self, addf_apply]
  exact congrArg (acc (ix2 p q) + ·)
    (MatmulNT.matmul_zero_apply dims none rfl rfl rfl rfl free_lhs free_rhs x0 x1 (ix2 p q))

/-- acc + the bias row on every row, entry by entry. -/
theorem fin_apply (a : Vec Ideal S512x512 .f32) (b : Vec Ideal S1x512 .f32) (p q : Fin 512) :
    k0_pay3 a b (ix2 p q) = a (ix2 p q) + b (ix2 (0 : Fin 1) q) := by
  unfold k0_pay3
  rw [addf_apply, shapeCast_self]
  exact congrArg (a (ix2 p q) + ·) (broadcastTo_apply b _ (ix2 p q) (ix2 (0 : Fin 1) q) (fun ax => by
    match ax with
    | ⟨0, _⟩ => rfl
    | ⟨1, _⟩ => rfl))

/-- ONE STEP: the running contraction over the first 512 · s columns, plus the product of the two blocks holding the
    next 512 columns, is the running contraction over the first 512 · (s + 1) columns. -/
theorem step_pdot (x : SX.Idx → EReal) (w : SW.Idx → EReal) (r0 n0 s : ℕ) (acc x0 x1 : Vec Ideal S512x512 .f32)
    (hx0 : ∀ p l : Fin 512, x0 (ix2 p l) = at2 x (r0 + p.val) (512 * s + l.val))
    (hx1 : ∀ q l : Fin 512, x1 (ix2 q l) = at2 w (n0 + q.val) (512 * s + l.val))
    (hacc : ∀ p q : Fin 512, acc (ix2 p q) = pdot x w (r0 + p.val) (n0 + q.val) (512 * s)) (p q : Fin 512) :
    k0_pay2 acc x0 x1 (ix2 p q) = pdot x w (r0 + p.val) (n0 + q.val) (512 * (s + 1)) := by
  rw [step_apply, hacc, Nat.mul_succ, pdot_add,
    ← sum_fin_eq_range 512 (fun l => at2 x (r0 + p.val) (512 * s + l) * at2 w (n0 + q.val) (512 * s + l))]
  refine congrArg (pdot x w (r0 + p.val) (n0 + q.val) (512 * s) + ·) (Finset.sum_congr rfl fun l _ => ?_)
  rw [hx0, hx1]

end Cert.ReferenceIdeal.Step

end
-- ==== Proof.RefValue.lean ====
/-
  What the blocked program's result array holds: y = x wᵀ + b, entry by entry, on the extended reals.

  The grid has 8 × 2 × 8 points; point t has row block i = t / 16, column block j = (t / 8) mod 2 and stretch
  s = t mod 8 of 512 columns of the contraction. At point t the body reads rows 512 i, … of x and rows 512 j, … of w,
  both at columns 512 s, …, and the 512 bias entries from 512 j on. The accumulator it carries is reset at s = 0 and
  gains the product of the two blocks at every point, so after point t its entry (p, q) is the contraction of row
  512 i + p of x with row 512 j + q of w over the first 512 (s + 1) columns: by induction on the point, each step
  extending the range of the sum by the next stretch. At s = 7 the range is all 4096 columns, the body adds the bias
  and stores the block, and only there is the block written back: block (i, j) of the affine map. Every entry
  (r, n) of the result lies in the block written at the point with i = r / 512, j = n / 512, s = 7.
-/
import proofs.«101121_g2000001187110709_pallasbulk_1111_2_alg».proof.Proof.Gen.ReferenceIdeal.Value
import proofs.«101121_g2000001187110709_pallasbulk_1111_2_alg».proof.Proof.RefPieces
import proofs.«101121_g2000001187110709_pallasbulk_1111_2_alg».proof.Proof.RefStep
import proofs.«101121_g2000001187110709_pallasbulk_1111_2_alg».proof.Proof.LibVectorAsMatrix
import proofs.«101121_g2000001187110709_pallasbulk_1111_2_alg».proof.Proof.Linear
import Idealize.ShloMosaic.Lib.Pipeline.Value
import Idealize.ShloMosaic.Lib.StableHlo.Run

noncomputable section

open scoped BigOperators

namespace Cert.ReferenceIdeal.Whole

open Cert.ReferenceIdeal Cert.ReferenceIdeal.Gen Idealize.ShloMosaic Idealize.ShloMosaic.TcCoe Idealize.SL.Sem
open Idealize.ShloMosaic.ValueIdx Idealize.ShloMosaic.StableHlo Idealize.ShloMosaic.BlockSum Cert.Linear
open Idealize.ShloMosaic.Pipeline (Dat)

variable (m : (ℓ : Loc nD τ sig) → Buf (Elt Ideal) ℓ) (ρ : Dev nD → PrngReg)

/-- x and w as launched. -/
abbrev X (c : Dev nD) : SX.Idx → EReal := m ((c : Thread nD τ).loc main_arg0)
abbrev W (c : Dev nD) : SW.Idx → EReal := m ((c : Thread nD τ).loc main_arg1)

/-! ## The arrays the grid finds, block by block -/

/-- b as a row. -/
theorem b_stage (c : Dev nD) : (V m c main_call0_v0 : S1x1024.Idx → EReal)
    = shapeCast S1x1024 (m ((c : Thread nD τ).loc main_arg2)) shapeCasts_S1024_S1x1024 := by
  dsimp only [Gen.V, Gen.hostOps0]; after_results; rfl

/-- The block indices over the grid, in terms of the point's position. -/
theorem idx_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- The x block at point t. -/
theorem xblk_apply (c : Dev nD) (t : Fin cfg0.N) (p l : Fin 512) :
    (iblk m c 0 t : Vec Ideal S512x512 .f32) (ix2 p l)
      = at2 (X m c) (512 * (t.val / 16) + p.val) (512 * (t.val % 8) + l.val) := by
  obtain ⟨e0, e1, -⟩ := idx_facts t
  unfold iblk
  rw [View.read_apply]
  show V m c main_arg0 (((cfg0.win 0).blk t).view.emb (ix2 p l)) = _
  rw [V_main_arg0]
  refine (at2_val (X m c) _).symm.trans (congrArg₂ (at2 (X m c)) ?_ ?_)
  · show win0_0.index t (0 : Fin 2) * 512 + 1 * p.val = 512 * (t.val / 16) + p.val; rw [e0]; omega
  · show win0_0.index t (1 : Fin 2) * 512 + 1 * l.val = 512 * (t.val % 8) + l.val; rw [e1]; omega

/-- The w block at point t. -/
theorem wblk_apply (c : Dev nD) (t : Fin cfg0.N) (q l : Fin 512) :
    (iblk m c 1 t : Vec Ideal S512x512 .f32) (ix2 q l)
      = at2 (W m c) (512 * (t.val / 8 % 2) + q.val) (512 * (t.val % 8) + l.val) := by
  obtain ⟨-, -, e2, e3, -⟩ := idx_facts t
  unfold iblk
  rw [View.read_apply]
  show V m c main_arg1 (((cfg0.win 1).blk t).view.emb (ix2 q l)) = _
  rw [V_main_arg1]
  refine (at2_val (W m c) _).symm.trans (congrArg₂ (at2 (W m c)) ?_ ?_)
  · show win0_1.index t (0 : Fin 2) * 512 + 1 * q.val = 512 * (t.val / 8 % 2) + q.val; rw [e2]; omega
  · show win0_1.index t (1 : Fin 2) * 512 + 1 * l.val = 512 * (t.val % 8) + l.val; rw [e3]; omega

/-- The bias block at point t. -/
theorem bblk_apply (c : Dev nD) (t : Fin cfg0.N) (q : Fin 512) (hq : 512 * (t.val / 8 % 2) + q.val < 1024) :
    (iblk m c 2 t : Vec Ideal S1x512 .f32) (ix2 (0 : Fin 1) q)
      = m ((c : Thread nD τ).loc main_arg2) (ix1 ⟨512 * (t.val / 8 % 2) + q.val, hq⟩) := by
  obtain ⟨-, -, -, -, e4, e5, -⟩ := idx_facts t
  unfold iblk
  rw [View.read_apply]
  show (V m c main_call0_v0 : S1x1024.Idx → EReal) (((cfg0.win 2).blk t).view.emb (ix2 (0 : Fin 1) q)) = _
  rw [b_stage]
  refine (congrArg _ (funext fun a => Fin.ext ?_)).trans
    (VectorAsMatrix.row_apply (m ((c : Thread nD τ).loc main_arg2)) shapeCasts_S1024_S1x1024 (0 : Fin 1)
      ⟨512 * (t.val / 8 % 2) + q.val, hq⟩)
  match a with
  | ⟨0, _⟩ => show win0_2.index t (0 : Fin 2) * 1 + 1 * 0 = 0; rw [e4]
  | ⟨1, _⟩ => show win0_2.index t (1 : Fin 2) * 512 + 1 * q.val = 512 * (t.val / 8 % 2) + q.val; rw [e5]; omega

/-- Entry (p, q) of the result's block at point t, in the result. -/
theorem out_emb (t : Fin cfg0.N) (p q : Fin 512) (hr : 512 * (t.val / 16) + p.val < 4096)
    (hq : 512 * (t.val / 8 % 2) + q.val < 1024) :
    ((cfg0.win 3).blk t).view.emb (ix2 p q)
      = (ix2 ⟨512 * (t.val / 16) + p.val, hr⟩ ⟨512 * (t.val / 8 % 2) + q.val, hq⟩ : S4096x1024.Idx) := by
  obtain ⟨-, -, -, -, -, -, e6, e7⟩ := idx_facts t
  funext a
  apply Fin.ext
  match a with
  | ⟨0, _⟩ => show win0_3.index t (0 : Fin 2) * 512 + 1 * p.val = 512 * (t.val / 16) + p.val; rw [e6]; omega
  | ⟨1, _⟩ => show win0_3.index t (1 : Fin 2) * 512 + 1 * q.val = 512 * (t.val / 8 % 2) + q.val; rw [e7]; omega

/-! ## The accumulator after each point -/

/-- The running contraction after point n: rows 512 (n / 16) + p of x and 512 ((n / 8) mod 2) + q of w over the
    first 512 (n mod 8 + 1) columns. -/
def running (c : Dev nD) (n : ℕ) : Vec Ideal S512x512 .f32 := fun j =>
  pdot (X m c) (W m c) (512 * (n / 16) + (j 0).val) (512 * (n / 8 % 2) + (j 1).val) (512 * (n % 8 + 1))

/-- An accumulator holding the running contraction over the stretches before point t's becomes, with the point's
    product added, the running contraction after point t. -/
theorem step_running (c : Dev nD) (t : Fin cfg0.N) (acc : Vec Ideal S512x512 .f32)
    (hacc : ∀ p q : Fin 512, acc (ix2 p q)
      = pdot (X m c) (W m c) (512 * (t.val / 16) + p.val) (512 * (t.val / 8 % 2) + q.val) (512 * (t.val % 8))) :
    k0_pay2 acc (iblk m c 0 t) (iblk m c 1 t) = running m c t.val := by
  funext j
  obtain ⟨p, q, rfl⟩ : ∃ (p q : Fin 512), j = ix2 p q := ⟨j 0, j 1, eq_ix2 j⟩
  exact Step.step_pdot (X m c) (W m c) (512 * (t.val / 16)) (512 * (t.val / 8 % 2)) (t.val % 8) acc
    (iblk m c 0 t) (iblk m c 1 t) (fun p l => xblk_apply m c t p l) (fun q l => wblk_apply m c t q l) hacc p q

/-- Away from a first stretch, the point before is in the same row and column block, one stretch earlier. -/
theorem prev_running (c : Dev nD) (n : ℕ) (h0 : ¬n % 8 = 0) (p q : Fin 512) :
    running m c (n - 1) (ix2 p q)
      = pdot (X m c) (W m c) (512 * (n / 16) + p.val) (512 * (n / 8 % 2) + q.val) (512 * (n % 8)) := by
  have e1 : (n - 1) / 16 = n / 16 := by omega
  have e2 : (n - 1) / 8 % 2 = n / 8 % 2 := by omega
  have e3 : (n - 1) % 8 + 1 = n % 8 := by omega
  show pdot _ _ (512 * ((n - 1) / 16) + p.val) (512 * ((n - 1) / 8 % 2) + q.val) (512 * ((n - 1) % 8 + 1)) = _
  rw [e1, e2, e3]

/-- THE ACCUMULATION: after every point the carried accumulator holds the running contraction. -/
theorem scratch_eq (c : Dev nD) (n : ℕ) : ∀ h : n < cfg0.N, (outsAt0 m c n h).2 = running m c n := by
  induction n using Nat.strong_induction_on with
  | _ n ih =>
    intro h
    by_cases h0 : n % 8 = 0
    · have h1 : ¬n % 8 = 7 := by omega
      rw [outsAt0_A m c ⟨n, h⟩ h0 h1]
      dsimp only
      rw [Pieces.scratch_first]
      exact step_running m c ⟨n, h⟩ _ (fun p q => by
        rw [Step.zero_apply]
        show (0 : EReal) = pdot _ _ _ _ (512 * (n % 8))
        rw [h0, Nat.mul_zero, pdot_zero])
    · have hlt : n - 1 < n := by omega
      have hprev : ∀ p q : Fin 512,
          (outsAt0 m c (n - 1) (Nat.lt_of_le_of_lt (Nat.sub_le _ _) h)).2 (ix2 p q)
            = pdot (X m c) (W m c) (512 * (n / 16) + p.val) (512 * (n / 8 % 2) + q.val) (512 * (n % 8)) :=
        fun p q => by rw [ih (n - 1) hlt]; exact prev_running m c n h0 p q
      by_cases h1 : n % 8 = 7
      · rw [outsAt0_C m c ⟨n, h⟩ h0 h1]
        dsimp only
        rw [Pieces.scratch_last]
        exact step_running m c ⟨n, h⟩ _ hprev
      · rw [outsAt0_B m c ⟨n, h⟩ h0 h1]
        dsimp only
        rw [Pieces.scratch_middle]
        exact step_running m c ⟨n, h⟩ _ hprev

/-! ## From the blocks to the array -/

/-- The affine map of the argument arrays as launched. -/
abbrev result (c : Dev nD) : Buf (Elt Ideal) ((c : Thread nD τ).loc main_v0) :=
  linear (m ((c : Thread nD τ).loc main_arg0)) (m ((c : Thread nD τ).loc main_arg1)) (m ((c : Thread nD τ).loc main_arg2))

/-- What a point that writes back (a last stretch) writes is its block of the affine map. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : t.val < 128 := lt_of_lt_of_eq t.isLt (show cfg0.N = 128 from N_0)
  rw [Value.flushed3_C m c t h0 h1, Pieces.out_last, scratch_eq m c (t.val - 1) _,
    step_running m c t _ (prev_running m c t.val h0)]
  funext y
  obtain ⟨p, q, rfl⟩ : ∃ (p q : Fin 512), y = ix2 p q := ⟨y 0, y 1, eq_ix2 y⟩
  have hr : 512 * (t.val / 16) + p.val < 4096 := by have := p.isLt; omega
  have hq : 512 * (t.val / 8 % 2) + q.val < 1024 := by have := q.isLt; omega
  show k0_pay3 (running m c t.val) (iblk m c 2 t) (ix2 p q) = result m c (((cfg0.win 3).blk t).view.emb (ix2 p q))
  rw [out_emb t p q hr hq]
  refine (Step.fin_apply (running m c t.val) (iblk m c 2 t) p q).trans ?_
  refine congrArg₂ (· + ·) ?_ (bblk_apply m c t q hq)
  show pdot (X m c) (W m c) (512 * (t.val / 16) + p.val) (512 * (t.val / 8 % 2) + q.val) (512 * (t.val % 8 + 1)) = _
  rw [h1]
  exact pdot_full (X m c) (W m c) ⟨512 * (t.val / 16) + p.val, hr⟩ ⟨512 * (t.val / 8 % 2) + q.val, hq⟩

/-- Every entry of the result lies in the block written at the last stretch of its row and column block. -/
theorem cover (i : S4096x1024.Idx) :
    ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 128 := N_0
  have ht : 16 * ((i 0).val / 512) + 8 * ((i 1).val / 512) + 7 < cfg0.N := by omega
  obtain ⟨-, -, -, -, -, -, e6, e7⟩ := idx_facts ⟨16 * ((i 0).val / 512) + 8 * ((i 1).val / 512) + 7, ht⟩
  refine ⟨⟨16 * ((i 0).val / 512) + 8 * ((i 1).val / 512) + 7, ht⟩, (flush0_3 _).mpr (by dsimp only; omega), ?_⟩
  show i ∈ ((View.whole main_v0).slice (win0_3.rect ⟨16 * ((i 0).val / 512) + 8 * ((i 1).val / 512) + 7, ht⟩)).set
  rw [View.set_slice_whole, Rect.mem_set_unit]
  intro a
  match a with
  | ⟨0, _⟩ =>
    show win0_3.index ⟨16 * ((i 0).val / 512) + 8 * ((i 1).val / 512) + 7, ht⟩ (0 : Fin 2) * 512 ≤ (i 0).val
      ∧ (i 0).val < win0_3.index ⟨16 * ((i 0).val / 512) + 8 * ((i 1).val / 512) + 7, ht⟩ (0 : Fin 2) * 512 + 512
    rw [e6]; dsimp only; omega
  | ⟨1, _⟩ =>
    show win0_3.index ⟨16 * ((i 0).val / 512) + 8 * ((i 1).val / 512) + 7, ht⟩ (1 : Fin 2) * 512 ≤ (i 1).val
      ∧ (i 1).val < win0_3.index ⟨16 * ((i 0).val / 512) + 8 * ((i 1).val / 512) + 7, ht⟩ (1 : Fin 2) * 512 + 512
    rw [e7]; dsimp only; omega

/-- So the result array ends at the affine map. -/
theorem final (c : Dev nD) : (dats m 0 c).arrAt 3 cfg0.N = result m c :=
  (dats m 0 c).arrAt_eq_of_cover 3 (result m c) (fun t hf => flushed_eq m c t hf) cover

/-- The run, read: the result at the affine map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.Whole

end
-- ==== Proof.lean ====
/-
  Two programs for the affine map y = x wᵀ + b (x of 4096 × 4096, w of 1024 × 4096, b of length 1024) end with
  the same result on the extended reals.

  The first rounds w to a narrower float format, which is the identity on the extended reals, and computes each
  1024-row block of y in one pass: entry (r, n) is the sum over all 4096 columns k of x(r, k) · w(n, k), plus b(n).
  The second cuts y into 512 × 512 blocks and the contraction into eight stretches of 512 columns; it keeps an
  accumulator per block, zero before the first stretch, adds one stretch's products at each grid point and, after the
  last, adds the bias and writes the block. Its entry (r, n) is ((0 + S₀) + S₁ + … + S₇) + b(n) with Sₛ the sum of
  x(r, k) · w(n, k) over columns 512 s ≤ k < 512 (s + 1).

  Addition of extended reals is commutative and associative with unit zero, so the eight stretches add up to the
  whole contraction whatever the entries are: both programs end at the same function of the argument arrays
  (Linear.lean), no entry needs to be finite, and the precondition is not used. Neither program writes its
  arguments, and the first program as printed and as read on the extended reals are the same text.
-/
import proofs.«101121_g2000001187110709_pallasbulk_1111_2_alg».proof.Defs
import proofs.«101121_g2000001187110709_pallasbulk_1111_2_alg».proof.Proof.Gen.Kernel
import proofs.«101121_g2000001187110709_pallasbulk_1111_2_alg».proof.Proof.Gen.Kernel.Frame
import proofs.«101121_g2000001187110709_pallasbulk_1111_2_alg».proof.Proof.Gen.KernelIdeal
import proofs.«101121_g2000001187110709_pallasbulk_1111_2_alg».proof.Proof.Gen.KernelIdeal.Frame
import proofs.«101121_g2000001187110709_pallasbulk_1111_2_alg».proof.Proof.Gen.KernelIdeal.Value
import proofs.«101121_g2000001187110709_pallasbulk_1111_2_alg».proof.Proof.Gen.ReferenceIdeal
import proofs.«101121_g2000001187110709_pallasbulk_1111_2_alg».proof.Proof.Gen.ReferenceIdeal.Frame
import proofs.«101121_g2000001187110709_pallasbulk_1111_2_alg».proof.Proof.Gen.ReferenceIdeal.Value
import proofs.«101121_g2000001187110709_pallasbulk_1111_2_alg».proof.Proof.Gen.Pre_finite_inputs
import proofs.«101121_g2000001187110709_pallasbulk_1111_2_alg».proof.Proof.KernelValue
import proofs.«101121_g2000001187110709_pallasbulk_1111_2_alg».proof.Proof.RefValue

noncomputable section

namespace Cert.Proof

open Idealize.ShloMosaic Idealize.SL.Sem

/-- Each program runs to the end without a fault and leaves x, w and b as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- Reading the first program on the extended reals rewrote none of its operations. -/
theorem preserves : Cert.preserves_Kernel_KernelIdeal := trivial

/-- From arguments that agree, both programs end with y = x wᵀ + b of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  show Cert.Linear.linear _ _ _ = Cert.Linear.linear _ _ _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
